-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel

variable [Facts]

def fn {F : FTy → Type} [FloatOps F] (main_arg0 : FVec F S8388608 .f32) (main_arg1 : FVec F S8388608 .f32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  main_v8
-- ==== Kernel.lean ====
abbrev S8388608 : Shape := ⟨1, ![8388608]⟩
abbrev S65536x128 : Shape := ⟨2, ![65536, 128]⟩
abbrev S1x1 : Shape := ⟨2, ![1, 1]⟩
abbrev S4096x128 : Shape := ⟨2, ![4096, 128]⟩
abbrev S128 : Shape := ⟨1, ![128]⟩
abbrev S1x128 : Shape := ⟨2, ![1, 128]⟩
abbrev S1 : Shape := ⟨1, ![1]⟩
abbrev S_ : Shape := ⟨0, ![]⟩

abbrev nBuf : Space → Nat
  | .hbm => 16
  | .vmem => 6
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S65536x128, .f32⟩
  | .hbm, ⟨3, _⟩ => ⟨S65536x128, .f32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1, .f32⟩
  | .local _ .vmem, ⟨5, _⟩ => ⟨S1x1, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S8388608_S65536x128 : S8388608.ShapeCasts S65536x128
  inb_S1x1_S1x1_0_0 : ∀ a, (![0, 0] : Fin 2 → Nat) a + S1x1.size a ≤ S1x1.size a
  h_S1x1 : 0 < S1x1.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S128 : S4096x128.Reduces [0] S128
  shapeCasts_S128_S1x128 : S128.ShapeCasts S1x128
  reduces_S1x128_S1 : S1x128.Reduces [1] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S65536x128.size a
  hwx0_1 : ∀ i : grid0.Coords, EltTy.bits .f32 = 32 ∨ (Rect.block (s := S65536x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8388608 : Shape := ⟨1, ![8388608]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S8388608, .f32⟩
  | .hbm, ⟨3, _⟩ => ⟨S_, .f32⟩
  | .hbm, ⟨4, _⟩ => ⟨S8388608, .f32⟩
  | .hbm, ⟨5, _⟩ => ⟨S8388608, .i1⟩
  | .hbm, ⟨6, _⟩ => ⟨S8388608, .f32⟩
  | .hbm, ⟨7, _⟩ => ⟨S_, .f32⟩
  | .hbm, ⟨8, _⟩ => ⟨S8388608, .f32⟩
  | .hbm, ⟨9, _⟩ => ⟨S8388608, .f32⟩
  | .hbm, ⟨10, _⟩ => ⟨S8388608, .f32⟩
  | .hbm, ⟨11, _⟩ => ⟨S_, .f32⟩
  | .hbm, ⟨12, _⟩ => ⟨S8388608, .f32⟩
  | .hbm, ⟨13, _⟩ => ⟨S8388608, .f32⟩
  | .hbm, ⟨14, _⟩ => ⟨S8388608, .f32⟩
  | .hbm, ⟨15, _⟩ => ⟨S8388608, .f32⟩
  | .hbm, ⟨16, _⟩ => ⟨S_, .f32⟩
  | .hbm, ⟨17, _⟩ => ⟨S8388608, .f32⟩
  | .hbm, ⟨18, _⟩ => ⟨S8388608, .f32⟩
  | .hbm, ⟨19, _⟩ => ⟨S_, .f32⟩
  | .hbm, ⟨20, _⟩ => ⟨S_, .f32⟩
  | .hbm, ⟨21, _⟩ => ⟨S8388608, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  reducesTo_S8388608_S_d0 : S8388608.ReducesTo [0] S_
  h_S_ : 0 < S_.numel

variable [Facts₀]

class Facts : Prop extends Facts₀ where

variable [Facts]
-- ==== Proof.LossSpec.lean ====
/-
  The loss both programs compute, as mathematics over the extended reals.

  For a difference d = predicted - labels the per-element score term is
      s(d) = (if d < 0 then exp(-d / 13) else exp(d / 10)) - 1
  and the per-element squared error is q(d) = d * d.  With S = Σ s(d_i) and Q = Σ q(d_i) over all
  8388608 elements the result is
      0.5 * S + 0.5 * sqrt(Q / 8388608).
  Both programs compute the same terms; they differ only in the ORDER of the two sums (the host sums
  the flat array; the kernel sums block by block, and inside a block lane by lane), and a finite sum
  in a commutative monoid does not depend on its order: no finiteness of the data is needed.

  This file holds the terms, the final combination, and the one re-indexing of a sum over the
  65536 rows of a [65536, 128] array as 16 blocks of 4096 rows.
-/
import Idealize.ShloMosaic.PureOps.Ideal
import Idealize.ShloMosaic.PureOps.Ideal.Laws
import Idealize.ShloMosaic.Lib.ValueIdx

noncomputable section

namespace Cert.LossSpec

open Idealize.ShloMosaic Idealize.ShloMosaic.ValueIdx

/-- The score term of one difference: exp(-d/13) - 1 below zero, exp(d/10) - 1 from zero up
    (13, 10 and 1 as the f32 words the programs hold). -/
def scoreTerm (d : EReal) : EReal :=
  Scalar.select (Ideal.cmp .olt d 0)
    (Ideal.exp (Ideal.div (-d) (Ideal.ofBits .f32 0x41500000#32)))
    (Ideal.exp (Ideal.div d (Ideal.ofBits .f32 0x41200000#32)))
  - Ideal.ofBits .f32 0x3F800000#32

/-- The squared error of one difference. -/
def squareTerm (d : EReal) : EReal := d * d

/-- The sum of a term over every element of the two flat arrays. -/
def total (f : EReal → EReal) (a b : (⟨1, ![8388608]⟩ : Shape).Idx → EReal) : EReal :=
  ∑ i, f (a i - b i)

/-- The last lines of both programs: 0.5 * S + 0.5 * sqrt(Q / 8388608) of the two totals (scalars of rank 0). -/
def combine (S Q : FVec Ideal ⟨0, ![]⟩ .f32) : FVec Ideal ⟨0, ![]⟩ .f32 :=
  addf (mulf (constant (F := Ideal) ⟨0, ![]⟩ .f32 0x3F000000#32) S)
    (mulf (constant (F := Ideal) ⟨0, ![]⟩ .f32 0x3F000000#32)
      (Host.sqrt (F := Ideal) (Host.divf (F := Ideal) Q (constant (F := Ideal) ⟨0, ![]⟩ .f32 0x4B000000#32))))

/-- The loss of two flat arrays. -/
def loss (a b : (⟨1, ![8388608]⟩ : Shape).Idx → EReal) : FVec Ideal ⟨0, ![]⟩ .f32 :=
  combine (fun _ => total scoreTerm a b) (fun _ => total squareTerm a b)

/-- Row r of block s of an array of 65536 rows cut into blocks of 4096 rows: row 4096 s + r.  Stated for every
    natural s (reduced modulo the row count) so that no bound has to be carried; for s < 16 nothing is reduced. -/
def blockRow (s : ℕ) (r : Fin 4096) : Fin 65536 := ⟨(s * 4096 + r.val) % 65536, Nat.mod_lt _ (by norm_num)⟩

theorem blockRow_val (s : ℕ) (hs : s < 16) (r : Fin 4096) : (blockRow s r).val = s * 4096 + r.val := by
  have := r.isLt
  exact Nat.mod_eq_of_lt (by omega)

/-- A sum over the 65536 rows and 128 lanes is the sum over the 16 blocks of, per block, the sum over the lanes
    of the sum over the block's 4096 rows. -/
theorem sum_by_blocks {M : Type*} [AddCommMonoid M] (g : Fin 65536 → Fin 128 → M) :
    ∑ R : Fin 65536, ∑ c : Fin 128, g R c
      = ∑ s ∈ Finset.range 16, ∑ c : Fin 128, ∑ r : Fin 4096, g (blockRow s r) c := by
  let e : Fin 16 × Fin 4096 ≃ Fin 65536 := finProdFinEquiv.trans (finCongr (by norm_num))
  have he : ∀ (t : Fin 16) (r : Fin 4096), e (t, r) = blockRow t.val r := fun t r => by
    apply Fin.ext
    rw [blockRow_val t.val t.isLt r]
    show r.val + 4096 * t.val = _
    omega
  calc ∑ R : Fin 65536, ∑ c : Fin 128, g R c
      = ∑ p : Fin 16 × Fin 4096, ∑ c : Fin 128, g (e p) c := (Equiv.sum_comp e _).symm
    _ = ∑ t : Fin 16, ∑ r : Fin 4096, ∑ c : Fin 128, g (e (t, r)) c := Fintype.sum_prod_type _
    _ = ∑ t : Fin 16, ∑ c : Fin 128, ∑ r : Fin 4096, g (blockRow t.val r) c :=
        Finset.sum_congr rfl fun t _ => by
          rw [Finset.sum_comm]
          exact Finset.sum_congr rfl fun c _ => Finset.sum_congr rfl fun r _ => by rw [he]
    _ = ∑ s ∈ Finset.range 16, ∑ c : Fin 128, ∑ r : Fin 4096, g (blockRow s r) c :=
        Fin.sum_univ_eq_sum_range (fun s => ∑ c : Fin 128, ∑ r : Fin 4096, g (blockRow s r) c) 16

/-- The total of a term over one 4096 × 128 block pair: lanes outside, rows inside (the order the body sums in). -/
def pointTotal (f : EReal → EReal) (x p : (⟨2, ![4096, 128]⟩ : Shape).Idx → EReal) : EReal :=
  ∑ c : Fin 128, ∑ r : Fin 4096, f (x (ix2 r c) - p (ix2 r c))

/-- The same total taken over block s of two [65536, 128] arrays. -/
def blockTotal (f : EReal → EReal) (X Y : (⟨2, ![65536, 128]⟩ : Shape).Idx → EReal) (s : ℕ) : EReal :=
  ∑ c : Fin 128, ∑ r : Fin 4096, f (X (ix2 (blockRow s r) c) - Y (ix2 (blockRow s r) c))

/-- The sixteen block totals add up to the total over the whole [65536, 128] arrays. -/
theorem sum_blockTotal (f : EReal → EReal) (X Y : (⟨2, ![65536, 128]⟩ : Shape).Idx → EReal) :
    ∑ s ∈ Finset.range 16, blockTotal f X Y s = ∑ j, f (X j - Y j) := by
  rw [sum_idx2]
  exact (sum_by_blocks fun R c => f (X (ix2 R c) - Y (ix2 R c))).symm

/-- Reshaping the flat arrays to [65536, 128] only renames the entries, so the total over the reshaped arrays is
    the total over the flat ones: the reshape's index correspondence is a bijection. -/
theorem total_reshape (f : EReal → EReal) (a b : (⟨1, ![8388608]⟩ : Shape).Idx → EReal)
    (h : (⟨1, ![8388608]⟩ : Shape).ShapeCasts ⟨2, ![65536, 128]⟩) :
    ∑ j, f (shapeCast ⟨2, ![65536, 128]⟩ a h j - shapeCast ⟨2, ![65536, 128]⟩ b h j) = total f a b :=
  Equiv.sum_comp (Shape.reshapeEquiv h) fun i => f (a i - b i)

end Cert.LossSpec

end
-- ==== Proof.PieceValues.lean ====
/-
  What one run of the kernel body leaves in the two accumulator blocks, as values.

  The body keeps two 1×1 accumulators.  At the first grid point it stores a zero into each, reads
  the zero back, and stores "accumulator + this block's total".  At every later point it reads the
  accumulator the previous point left and stores "accumulator + this block's total".  Read back
  through the covering stores, the score accumulator therefore ends a point at
      (score payload) x p acc        with acc the zero block at the first point, the previous
                                      contents at a later one,
  and the squared-error accumulator at
      (add payload) (square-sum payload x p) acc      likewise.
  Here x and p are the two input blocks of the point.  The statements hold at every float instance.
-/
import proofs.«109373_j20177756356930_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The offset of every load and store of the body: the origin. -/
theorem origin : (![0, 0] : Fin 2 → Nat) = fun _ => 0 := funext fun a => by fin_cases a <;> rfl

/-- A later point, score accumulator: the one covering store writes the previous contents plus the block's score total. -/
theorem later_score (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S4096x128 .f32) (xo2 xo3 : Vec F S1x1 .f32) :
    out0_B_2 c i a1 h1 a2 h2 a3 h3 a4 h4 hc x0 x1 xo2 xo3 = k0_pay6 x0 x1 xo2 := by
  unfold out0_B_2
  rw [View.read_writes_eq_canon _ _ _ (cover0_B_2 c i a1 h1 a2 h2 a3 h3 a4 h4 hc x0 x1 xo2 xo3)]
  unfold kernelRun0_B
  dsimp only
  rw [View.canon_unit_zero origin]
  simp only [View.readAt_eq_ld, h1.read_unread, h2.read_unread, h3.read_unread,
    View.ld_unit_zero (S := S4096x128) origin, View.ld_unit_zero (S := S1x1) origin]

/-- A later point, squared-error accumulator: previous contents plus the block's sum of squares. -/
theorem later_square (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc : ¬cond0_0 i)
    (x0 x1 : Vec F S4096x128 .f32) (xo2 xo3 : Vec F S1x1 .f32) :
    out0_B_3 c i a1 h1 a2 h2 a3 h3 a4 h4 hc x0 x1 xo2 xo3 = k0_pay1 (k0_pay5 x0 x1) (k0_pay7 xo3) := by
  unfold out0_B_3
  rw [View.read_writes_eq_canon _ _ _ (cover0_B_3 c i a1 h1 a2 h2 a3 h3 a4 h4 hc x0 x1 xo2 xo3)]
  unfold kernelRun0_B
  dsimp only
  sl_unfold_words
  rw [View.canon_unit_zero origin]
  simp only [View.readAt_eq_ld, h1.read_unread, h2.read_unread, h4.read_unread,
    View.ld_unit_zero (S := S4096x128) origin, View.ld_unit_zero (S := S1x1) origin]

/-- The first point, score accumulator: the zero block is stored, read back, and the block's score total added to it. -/
theorem first_score (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S4096x128 .f32) :
    out0_A_2 c i a1 h1 a2 h2 a3 h3 a4 h4 hc x0 x1 = k0_pay6 x0 x1 (k0_pay2 (F := F)) := by
  unfold out0_A_2
  rw [View.read_writes_eq_canon _ _ _ (cover0_A_2 c i a1 h1 a2 h2 a3 h3 a4 h4 hc x0 x1)]
  unfold kernelRun0_A
  dsimp only
  sl_unfold_words
  rw [View.canon_cons_unit_zero (S := S1x1) origin, View.readCov_unit_zero (S := S1x1) _ origin]
  simp only [View.readAt_eq_ld, h1.read_unread, h2.read_unread, View.ld_unit_zero (S := S4096x128) origin]

/-- The first point, squared-error accumulator: zero stored, read back, the block's sum of squares added. -/
theorem first_square (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (a4 : Memref sig .tc .vmem S1x1 .f32) (h4 : a4.IsWhole) (hc : cond0_0 i)
    (x0 x1 : Vec F S4096x128 .f32) :
    out0_A_3 c i a1 h1 a2 h2 a3 h3 a4 h4 hc x0 x1 = k0_pay1 (k0_pay5 x0 x1) (k0_pay7 (k0_pay3 (F := F))) := by
  unfold out0_A_3
  rw [View.read_writes_eq_canon _ _ _ (cover0_A_3 c i a1 h1 a2 h2 a3 h3 a4 h4 hc x0 x1)]
  unfold kernelRun0_A
  dsimp only
  sl_unfold_words
  rw [View.canon_cons_unit_zero (S := S1x1) origin, View.readCov_unit_zero (S := S1x1) _ origin]
  simp only [View.readAt_eq_ld, h1.read_unread, h2.read_unread, View.ld_unit_zero (S := S4096x128) origin]

end Cert.KernelIdeal.Pieces

end
-- ==== Proof.BlockTotals.lean ====
/-
  One grid point's contribution, at the extended reals.

  A point holds a block x of predicted values and a block p of labels, both 4096 × 128.  The body forms
  d = x - p entry by entry, then the score terms s(d) and the squares d * d, and collapses each of the two
  4096 × 128 arrays to one number: the rows are summed first (one number per lane), then the 128 lanes.
  So the score payload is   acc + Σ_lane Σ_row s(x - p)   and the square-sum payload   Σ_lane Σ_row (x - p)².
  The subtraction "0 - d" the body uses for a negation is -d on the extended reals, and the word 0x00000000 is 0.
-/
import proofs.«109373_j20177756356930_2_alg».proof.Proof.Gen.KernelIdeal.Skeleton
import proofs.«109373_j20177756356930_2_alg».proof.Proof.LossSpec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.BlockTotals

open Cert.KernelIdeal Cert.KernelIdeal.Gen Cert.LossSpec

/-- Rows summed first, then lanes, the one number kept as a 1 × 1 block: the body's two reductions with the casts
    between them. -/
def collapse {F : FTy → Type} [FloatOps F] (v : FVec F S4096x128 .f32) : FVec F S1x1 .f32 :=
  shapeCast S1x1 (multiReduction .add [1] S1 (shapeCast S1x128
    (multiReduction .add [0] S128 v 0x00000000#32 reduces_S4096x128_S128 (.inl rfl) rfl) shapeCasts_S128_S1x128)
    0x00000000#32 reduces_S1x128_S1 (.inl rfl) rfl) shapeCasts_S1_S1x1

/-- At the extended reals the collapse is the double sum: over the lanes, of the sum over the rows. -/
theorem collapse_apply (v : FVec Ideal S4096x128 .f32) (j : S1x1.Idx) :
    collapse v j = ∑ c : Fin 128, ∑ r : Fin 4096, v (ix2 r c) := by
  unfold collapse
  refine (shapeCast_apply _ shapeCasts_S1_S1x1 j (ix1 (0 : Fin 1)) ?_).trans ?_
  · rw [Shape.rowMajor_val_two, Shape.rowMajor_val_one]
    have h0 : (j 0).val < 1 := (j 0).isLt
    have h1 : (j 1).val < 1 := (j 1).isLt
    show (0 : ℕ) = (j 0).val * 1 + (j 1).val
    omega
  refine (Ideal.multiReduction_add_single _ 0x00000000#32 reduces_S1x128_S1 (.inl rfl) rfl (ix1 (0 : Fin 1))).trans ?_
  refine Finset.sum_congr rfl fun c _ => ?_
  -- the lane sum reads the row sums at (0, c), that is the row-sum vector at c
  have hl : reduces_S1x128_S1.lift (ix1 (0 : Fin 1)) c = ix2 (0 : Fin 1) c := by
    funext a
    match a with
    | ⟨0, _⟩ => rfl
    | ⟨1, _⟩ => rfl
  refine (congrArg _ hl).trans ?_
  refine (shapeCast_a_1a_apply _ shapeCasts_S128_S1x128 0 c).trans ?_
  refine (Ideal.multiReduction_add_single v 0x00000000#32 reduces_S4096x128_S128 (.inl rfl) rfl (ix1 c)).trans ?_
  -- the row sum at lane c reads the block at (r, c)
  refine Finset.sum_congr rfl fun r _ => congrArg v ?_
  funext a
  match a with
  | ⟨0, _⟩ => rfl
  | ⟨1, _⟩ => rfl

/-- The block of score terms of a point, entry by entry (the body's lines from the comparison to the subtraction of one). -/
def scoreVec {F : FTy → Type} [FloatOps F] (x0 x1 : Vec F S4096x128 .f32) : FVec F S4096x128 .f32 :=
  subf (select (cmpf .olt (k0_pay4 x0 x1) (broadcast S4096x128 (Scalar.ofBits .f32 0x00000000#32)))
      (exp (divf (subf (broadcast S4096x128 (Scalar.ofBits .f32 0x00000000#32)) (k0_pay4 x0 x1))
        (broadcast S4096x128 (Scalar.ofBits .f32 0x41500000#32))))
      (exp (divf (k0_pay4 x0 x1) (broadcast S4096x128 (Scalar.ofBits .f32 0x41200000#32)))))
    (broadcast S4096x128 (Scalar.ofBits .f32 0x3F800000#32))

/-- The score payload is the accumulator plus the collapse of the score terms (any float instance). -/
theorem scorePayload_eq {F : FTy → Type} [FloatOps F] (x0 x1 : Vec F S4096x128 .f32) (acc : Vec F S1x1 .f32) :
    k0_pay6 x0 x1 acc = addf (shapeCast S1x1 acc shapeCasts_S1x1_S1x1) (collapse (scoreVec x0 x1)) := rfl

/-- The square-sum payload is the collapse of the squared differences (any float instance). -/
theorem squarePayload_eq {F : FTy → Type} [FloatOps F] (x0 x1 : Vec F S4096x128 .f32) :
    k0_pay5 x0 x1 = collapse (mulf (k0_pay4 x0 x1) (k0_pay4 x0 x1)) := rfl

/-- The difference block, entry by entry. -/
theorem diff_apply (x0 x1 : Vec Ideal S4096x128 .f32) (i : S4096x128.Idx) : k0_pay4 x0 x1 i = x0 i - x1 i := by
  unfold k0_pay4
  rw [shapeCast_self, shapeCast_self]
  rfl

/-- A score-term entry is the score term of the difference there. -/
theorem scoreVec_apply (x0 x1 : Vec Ideal S4096x128 .f32) (i : S4096x128.Idx) :
    scoreVec x0 x1 i = scoreTerm (x0 i - x1 i) := by
  show Scalar.select (Ideal.cmp .olt (k0_pay4 x0 x1 i) (Ideal.ofBits .f32 0x00000000#32))
      (Ideal.exp (Ideal.div (Ideal.ofBits .f32 0x00000000#32 - k0_pay4 x0 x1 i) (Ideal.ofBits .f32 0x41500000#32)))
      (Ideal.exp (Ideal.div (k0_pay4 x0 x1 i) (Ideal.ofBits .f32 0x41200000#32)))
      - Ideal.ofBits .f32 0x3F800000#32 = _
  rw [Ideal.ofBits_zero_f32, zero_sub, diff_apply]
  rfl

/-- THE SCORE PAYLOAD at the extended reals: the accumulator plus the block's score total. -/
theorem scorePayload_apply (x0 x1 : Vec Ideal S4096x128 .f32) (acc : Vec Ideal S1x1 .f32) (j : S1x1.Idx) :
    k0_pay6 x0 x1 acc j = acc j + pointTotal scoreTerm x0 x1 := by
  rw [scorePayload_eq, shapeCast_self]
  show acc j + collapse (scoreVec x0 x1) j = _
  rw [collapse_apply]
  exact congrArg _ (Finset.sum_congr rfl fun c _ => Finset.sum_congr rfl fun r _ => scoreVec_apply x0 x1 _)

/-- THE SQUARE-SUM PAYLOAD at the extended reals: the block's sum of squared differences. -/
theorem squarePayload_apply (x0 x1 : Vec Ideal S4096x128 .f32) (j : S1x1.Idx) :
    k0_pay5 x0 x1 j = pointTotal squareTerm x0 x1 := by
  rw [squarePayload_eq, collapse_apply]
  refine Finset.sum_congr rfl fun c _ => Finset.sum_congr rfl fun r _ => ?_
  show k0_pay4 x0 x1 (ix2 r c) * k0_pay4 x0 x1 (ix2 r c) = _
  rw [diff_apply]
  rfl

/-- The remaining payloads: the stored zero blocks, the accumulator read back, and the final addition. -/
theorem zeroScore_apply (j : S1x1.Idx) : k0_pay2 (F := Ideal) j = 0 := Ideal.ofBits_zero_f32
theorem zeroSquare_apply (j : S1x1.Idx) : k0_pay3 (F := Ideal) j = 0 := Ideal.ofBits_zero_f32
theorem readBack_eq {F : FTy → Type} [FloatOps F] (v : Vec F S1x1 .f32) : k0_pay7 v = v := by
  unfold k0_pay7
  rw [shapeCast_self]
theorem addPayload_apply (blockTotal acc : FVec Ideal S1x1 .f32) (j : S1x1.Idx) :
    k0_pay1 blockTotal acc j = acc j + blockTotal j := rfl

/-- THE FIRST POINT leaves the block's two totals: the accumulators start from the stored zeros. -/
theorem firstPoint (x0 x1 : Vec Ideal S4096x128 .f32) :
    ((k0_pay6 x0 x1 (k0_pay2 (F := Ideal)), k0_pay1 (k0_pay5 x0 x1) (k0_pay7 (k0_pay3 (F := Ideal))))
      : Vec Ideal S1x1 .f32 × Vec Ideal S1x1 .f32)
      = (fun _ => pointTotal scoreTerm x0 x1, fun _ => pointTotal squareTerm x0 x1) := by
  refine Prod.ext (funext fun j => ?_) (funext fun j => ?_)
  · show k0_pay6 x0 x1 (k0_pay2 (F := Ideal)) j = _
    rw [scorePayload_apply, zeroScore_apply, zero_add]
  · show k0_pay1 (k0_pay5 x0 x1) (k0_pay7 (k0_pay3 (F := Ideal))) j = _
    rw [addPayload_apply, readBack_eq, zeroSquare_apply, zero_add, squarePayload_apply]

/-- A LATER POINT adds the block's two totals to what the accumulators held. -/
theorem laterPoint (x0 x1 : Vec Ideal S4096x128 .f32) (s q : EReal) :
    ((k0_pay6 x0 x1 (fun _ => s), k0_pay1 (k0_pay5 x0 x1) (k0_pay7 (fun _ => q)))
      : Vec Ideal S1x1 .f32 × Vec Ideal S1x1 .f32)
      = (fun _ => s + pointTotal scoreTerm x0 x1, fun _ => q + pointTotal squareTerm x0 x1) := by
  refine Prod.ext (funext fun j => ?_) (funext fun j => ?_)
  · show k0_pay6 x0 x1 (fun _ => s) j = _
    rw [scorePayload_apply]
  · show k0_pay1 (k0_pay5 x0 x1) (k0_pay7 fun _ => q) j = _
    rw [addPayload_apply, readBack_eq, squarePayload_apply]

end Cert.KernelIdeal.BlockTotals

end
-- ==== Proof.RunningTotals.lean ====
/-
  The two accumulators after each grid point, at the extended reals.

  Grid point t stages block t of the two [65536, 128] arrays the region finds (rows 4096 t … 4096 t + 4095, all
  128 lanes), so the totals a point adds are the block totals of those arrays.  By induction on the point — the
  first point starts from zero, every later one adds to what the point before left — after point n each
  accumulator holds the sum of the block totals of points 0 … n.
-/
import proofs.«109373_j20177756356930_2_alg».proof.Proof.Gen.KernelIdeal.Frame
import proofs.«109373_j20177756356930_2_alg».proof.Proof.PieceValues
import proofs.«109373_j20177756356930_2_alg».proof.Proof.BlockTotals

noncomputable section

open Idealize.ShloMosaic Idealize.ShloMosaic.TcCoe Idealize.SL.Sem Idealize.ShloMosaic.ValueIdx

namespace Cert.KernelIdeal.Running

open Cert.KernelIdeal Cert.KernelIdeal.Gen Cert.LossSpec

variable (m : (ℓ : Loc nD τ sig) → Buf (Elt Ideal) ℓ)

/-- Where the two input windows sit at point t: block row t, block column 0. -/
theorem predicted_index (t : Fin cfg0.N) : win0_0.index t 0 = t.val ∧ win0_0.index t 1 = 0 :=
  (by decide +kernel : ∀ t : Fin grid0.N, win0_0.index t 0 = t.val ∧ win0_0.index t 1 = 0) t
theorem labels_index (t : Fin cfg0.N) : win0_1.index t 0 = t.val ∧ win0_1.index t 1 = 0 :=
  (by decide +kernel : ∀ t : Fin grid0.N, win0_1.index t 0 = t.val ∧ win0_1.index t 1 = 0) t

/-- The predicted block of point t at (r, l) is the reshaped predicted array at row 4096 t + r, lane l. -/
theorem predictedBlock_apply (c : Dev nD) (t : Fin cfg0.N) (r : Fin 4096) (l : Fin 128) :
    (iblk m c 0 t : Vec Ideal S4096x128 .f32) (ix2 r l) = V m c main_v0 (ix2 (blockRow t.val r) l) := by
  have hi := predicted_index t
  have ht : t.val < 16 := lt_of_lt_of_eq t.isLt N_0
  unfold iblk
  rw [View.read_apply]
  show V m c main_v0 _ = V m c main_v0 _
  congr 1
  funext a
  apply Fin.ext
  match a with
  | ⟨0, _⟩ =>
    show win0_0.index t 0 * 4096 + 1 * r.val = (blockRow t.val r).val
    rw [hi.1, blockRow_val _ ht]; omega
  | ⟨1, _⟩ =>
    show win0_0.index t 1 * 128 + 1 * l.val = l.val
    rw [hi.2]; omega

/-- The labels block likewise. -/
theorem labelsBlock_apply (c : Dev nD) (t : Fin cfg0.N) (r : Fin 4096) (l : Fin 128) :
    (iblk m c 1 t : Vec Ideal S4096x128 .f32) (ix2 r l) = V m c main_v1 (ix2 (blockRow t.val r) l) := by
  have hi := labels_index t
  have ht : t.val < 16 := lt_of_lt_of_eq t.isLt N_0
  unfold iblk
  rw [View.read_apply]
  show V m c main_v1 _ = V m c main_v1 _
  congr 1
  funext a
  apply Fin.ext
  match a with
  | ⟨0, _⟩ =>
    show win0_1.index t 0 * 4096 + 1 * r.val = (blockRow t.val r).val
    rw [hi.1, blockRow_val _ ht]; omega
  | ⟨1, _⟩ =>
    show win0_1.index t 1 * 128 + 1 * l.val = l.val
    rw [hi.2]; omega

/-- So the total a point takes over its two blocks is the block total of the two arrays. -/
theorem pointTotal_blocks (f : EReal → EReal) (c : Dev nD) (t : Fin cfg0.N) :
    pointTotal f (iblk m c 0 t : Vec Ideal S4096x128 .f32) (iblk m c 1 t : Vec Ideal S4096x128 .f32)
      = blockTotal f (V m c main_v0) (V m c main_v1) t.val := by
  unfold pointTotal blockTotal
  refine Finset.sum_congr rfl fun l _ => Finset.sum_congr rfl fun r _ => ?_
  rw [predictedBlock_apply, labelsBlock_apply]

/-- The score accumulator after point n: the block score totals of points 0 … n, summed. -/
def scoreUpTo (c : Dev nD) (n : ℕ) : EReal :=
  ∑ s ∈ Finset.range (n + 1), blockTotal scoreTerm (V m c main_v0) (V m c main_v1) s
/-- The squared-error accumulator after point n. -/
def squareUpTo (c : Dev nD) (n : ℕ) : EReal :=
  ∑ s ∈ Finset.range (n + 1), blockTotal squareTerm (V m c main_v0) (V m c main_v1) s

/-- What the accumulators' staging buffers hold after point n is that pair of sums: by induction on the point. -/
theorem outsAt_eq (c : Dev nD) : ∀ (n : ℕ) (h : n < cfg0.N),
    outsAt0 m c n h = ((fun _ => scoreUpTo m c n : Vec Ideal S1x1 .f32), (fun _ => squareUpTo m c n : Vec Ideal S1x1 .f32))
  | 0, h => by
    rw [outsAt0_A m c ⟨0, h⟩ rfl, Pieces.first_score, Pieces.first_square]
    refine (BlockTotals.firstPoint (iblk m c 0 ⟨0, h⟩) (iblk m c 1 ⟨0, h⟩)).trans ?_
    rw [pointTotal_blocks, pointTotal_blocks]
    unfold scoreUpTo squareUpTo
    rw [Finset.sum_range_one, Finset.sum_range_one]
  | n + 1, h => by
    have hN : cfg0.N = 16 := N_0
    have hB : ¬(⟨n + 1, h⟩ : Fin cfg0.N).val % 16 = 0 := by dsimp only; omega
    rw [outsAt0_B m c ⟨n + 1, h⟩ hB, Pieces.later_score, Pieces.later_square]
    show (k0_pay6 _ _ (outsAt0 m c n _).1, k0_pay1 (k0_pay5 _ _) (k0_pay7 (outsAt0 m c n _).2)) = _
    rw [outsAt_eq c n]
    refine (BlockTotals.laterPoint (iblk m c 0 ⟨n + 1, h⟩) (iblk m c 1 ⟨n + 1, h⟩) (scoreUpTo m c n) (squareUpTo m c n)).trans ?_
    rw [pointTotal_blocks, pointTotal_blocks]
    unfold scoreUpTo squareUpTo
    rw [Finset.sum_range_succ _ (n + 1), Finset.sum_range_succ _ (n + 1)]

end Cert.KernelIdeal.Running

end
-- ==== Proof.KernelValue.lean ====
/-
  The idealized kernel's result, at the extended reals.

  Each accumulator's one block is written back to its 1 × 1 array once, after the last grid point, so the two
  arrays end at the sums of all sixteen block totals; the sixteen block totals add up to the total over the
  reshaped [65536, 128] arrays, and reshaping the flat inputs only renames entries, so the two arrays end at the
  score total S and the squared-error total Q of the flat inputs.  The lines after the call reshape the two
  1 × 1 arrays to scalars and form 0.5 * S + 0.5 * sqrt(Q / 8388608): the loss of the two inputs.
-/
import proofs.«109373_j20177756356930_2_alg».proof.Proof.Gen.KernelIdeal.Frame
import proofs.«109373_j20177756356930_2_alg».proof.Proof.RunningTotals
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.LossSpec Cert.KernelIdeal.Running

variable (m : (ℓ : Loc nD τ sig) → Buf (Elt Ideal) ℓ) (ρ : Dev nD → PrngReg)

/-- The score accumulator's array after the run: the sum of the sixteen block score totals. -/
abbrev scoreArray (c : Dev nD) : Buf (Elt Ideal) ((c : Thread nD τ).loc main_v2_0) := fun _ => scoreUpTo m c 15
/-- The squared-error accumulator's array after the run. -/
abbrev squareArray (c : Dev nD) : Buf (Elt Ideal) ((c : Thread nD τ).loc main_v2_1) := fun _ => squareUpTo m c 15

/-- The one write-back of the score accumulator, after point 15, writes the sum over all sixteen points:
    block (0, 0) of a 1 × 1 array read through zero offsets is the array. -/
theorem flushed_score (c : Dev nD) (t : Fin cfg0.N) (hf : (cfg0.win 2).flush t = true) :
    (dats m 0 c).flushed 2 t = ((cfg0.win 2).blk t).view.read (Elt Ideal) (scoreArray m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, outsAt_eq]
  have hz' : (fun a => win0_2.index t0_15 a * main_v2_0.ty.shape.size a) = fun _ => 0 :=
    funext fun a => by fin_cases a <;> decide
  exact (Memref.read_access_unit_zero (Elt Ideal) main_v2_0 hz' (fun a => by rw [congrFun hz' a]; simp) (scoreArray m c)).symm

theorem flushed_square (c : Dev nD) (t : Fin cfg0.N) (hf : (cfg0.win 3).flush t = true) :
    (dats m 0 c).flushed 3 t = ((cfg0.win 3).blk t).view.read (Elt Ideal) (squareArray m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3, outsAt_eq]
  have hz' : (fun a => win0_3.index t0_15 a * main_v2_1.ty.shape.size a) = fun _ => 0 :=
    funext fun a => by fin_cases a <;> decide
  exact (Memref.read_access_unit_zero (Elt Ideal) main_v2_1 hz' (fun a => by rw [congrFun hz' a]; simp) (squareArray m c)).symm

/-- Point 15's block is the whole 1 × 1 array, so the score array ends at that sum. -/
theorem final_score (c : Dev nD) : (dats m 0 c).arrAt 2 cfg0.N = scoreArray m c :=
  (dats m 0 c).arrAt_eq_of_cover 2 (scoreArray m c) (flushed_score m c) fun i =>
    ⟨t0_15, (flush0_2 t0_15).mpr rfl, by
      show i ∈ ((View.whole main_v2_0).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_15 0 * win0_2.size 0 ≤ (i 0 : Nat) ∧ (i 0 : Nat) < win0_2.index t0_15 0 * win0_2.size 0 + win0_2.xsize (grid0.coords t0_15) 0
        rw [show win0_2.index t0_15 0 * win0_2.size 0 = 0 from by decide +kernel, show win0_2.xsize (grid0.coords t0_15) 0 = 1 from by decide +kernel]; omega
      | ⟨1, _⟩ =>
        show win0_2.index t0_15 1 * win0_2.size 1 ≤ (i 1 : Nat) ∧ (i 1 : Nat) < win0_2.index t0_15 1 * win0_2.size 1 + win0_2.xsize (grid0.coords t0_15) 1
        rw [show win0_2.index t0_15 1 * win0_2.size 1 = 0 from by decide +kernel, show win0_2.xsize (grid0.coords t0_15) 1 = 1 from by decide +kernel]; omega⟩

theorem final_square (c : Dev nD) : (dats m 0 c).arrAt 3 cfg0.N = squareArray m c :=
  (dats m 0 c).arrAt_eq_of_cover 3 (squareArray m c) (flushed_square m c) fun i =>
    ⟨t0_15, (flush0_3 t0_15).mpr rfl, by
      show i ∈ ((View.whole main_v2_1).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index t0_15 0 * win0_3.size 0 ≤ (i 0 : Nat) ∧ (i 0 : Nat) < win0_3.index t0_15 0 * win0_3.size 0 + win0_3.xsize (grid0.coords t0_15) 0
        rw [show win0_3.index t0_15 0 * win0_3.size 0 = 0 from by decide +kernel, show win0_3.xsize (grid0.coords t0_15) 0 = 1 from by decide +kernel]; omega
      | ⟨1, _⟩ =>
        show win0_3.index t0_15 1 * win0_3.size 1 ≤ (i 1 : Nat) ∧ (i 1 : Nat) < win0_3.index t0_15 1 * win0_3.size 1 + win0_3.xsize (grid0.coords t0_15) 1
        rw [show win0_3.index t0_15 1 * win0_3.size 1 = 0 from by decide +kernel, show win0_3.xsize (grid0.coords t0_15) 1 = 1 from by decide +kernel]; omega⟩

/-- The arrays the region finds are the two reshapes of the flat inputs. -/
theorem predicted_reshaped (c : Dev nD) :
    (V m c main_v0 : S65536x128.Idx → EReal)
      = shapeCast S65536x128 (m ((c : Thread nD τ).loc main_arg0)) shapeCasts_S8388608_S65536x128 := by
  show StableHlo.after hostOps0 (fun b => m (c, b)) (Proc.devRef .tc main_v0) = _
  after_results
  rfl

theorem labels_reshaped (c : Dev nD) :
    (V m c main_v1 : S65536x128.Idx → EReal)
      = shapeCast S65536x128 (m ((c : Thread nD τ).loc main_arg1)) shapeCasts_S8388608_S65536x128 := by
  show StableHlo.after hostOps0 (fun b => m (c, b)) (Proc.devRef .tc main_v1) = _
  after_results
  rfl

/-- After the last point the score accumulator holds the score total of the flat inputs: the sixteen block totals
    add up to the total over the reshaped arrays, which is the total over the flat ones. -/
theorem scoreUpTo_last (c : Dev nD) :
    scoreUpTo m c 15 = total scoreTerm (m ((c : Thread nD τ).loc main_arg0)) (m ((c : Thread nD τ).loc main_arg1)) := by
  show ∑ s ∈ Finset.range 16, blockTotal scoreTerm (V m c main_v0) (V m c main_v1) s = _
  rw [sum_blockTotal, predicted_reshaped, labels_reshaped]
  exact total_reshape scoreTerm _ _ shapeCasts_S8388608_S65536x128

/-- And the squared-error accumulator the squared-error total. -/
theorem squareUpTo_last (c : Dev nD) :
    squareUpTo m c 15 = total squareTerm (m ((c : Thread nD τ).loc main_arg0)) (m ((c : Thread nD τ).loc main_arg1)) := by
  show ∑ s ∈ Finset.range 16, blockTotal squareTerm (V m c main_v0) (V m c main_v1) s = _
  rw [sum_blockTotal, predicted_reshaped, labels_reshaped]
  exact total_reshape squareTerm _ _ shapeCasts_S8388608_S65536x128

/-- THE LINES AFTER THE CALL leave the loss of the two inputs in the result: they read the two 1 × 1 arrays (at the
    two totals) as scalars and combine them. -/
theorem tail_eq (c : Dev nD) :
    Pipeline.afterTail₀ cfgs (dats m) 0 (V0 m) [hostOps1] c main_v9
      = loss (m ((c : Thread nD τ).loc main_arg0)) (m ((c : Thread nD τ).loc main_arg1)) := by
  unfold Pipeline.afterTail₀
  show StableHlo.after hostOps1 _ (Proc.devRef .tc main_v9) = _
  after_results
  have e2 : Pipeline.withArrays (cfgs 0).spec c (V0 m c) (fun w => (dats m 0 c).arrAt w (cfgs 0).N)
      (Proc.devRef .tc main_v2_0) = scoreArray m c :=
    (Pipeline.withArrays_arr spec0 launch0.win.arr_inj c _ _ 2).trans (final_score m c)
  have e3 : Pipeline.withArrays (cfgs 0).spec c (V0 m c) (fun w => (dats m 0 c).arrAt w (cfgs 0).N)
      (Proc.devRef .tc main_v2_1) = squareArray m c :=
    (Pipeline.withArrays_arr spec0 launch0.win.arr_inj c _ _ 3).trans (final_square m c)
  rw [e2, e3]
  show combine (fun _ => scoreUpTo m c 15) (fun _ => squareUpTo m c 15) = combine _ _
  rw [scoreUpTo_last, squareUpTo_last]

/-- THE IDEALIZED KERNEL'S RUN: every weakly fair execution terminates with the result at the loss of the two
    inputs and the inputs unchanged. -/
theorem run : θ_run defs (onTc (τ := τ) (main (F := Ideal))) ⟨m, fun _ => 0, ρ⟩ fun r => ∀ c : Dev nD,
      r.2.mem ((c.tc : Thread nD τ).loc main_v9) = loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v9 (Pipeline.mem_restRefs_of main_v9 (by decide) (by decide))).trans (tail_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.ReferenceValue.lean ====
/-
  The reference's result, at the extended reals, is the loss of its two arguments.

  Entry by entry the reference forms d = predicted - labels, the score term s(d) (its negation "-d" and its
  divisions and exponentials are the extended reals' own) and the square d * d; it sums each array from zero over
  all 8388608 entries, and combines the two sums as 0.5 * S + 0.5 * sqrt(Q / 8388608).
-/
import proofs.«109373_j20177756356930_2_alg».proof.Proof.Gen.ReferenceIdeal.Read
import proofs.«109373_j20177756356930_2_alg».proof.Proof.LossSpec

noncomputable section

open Idealize.ShloMosaic

namespace Cert.ReferenceIdeal.RefValue

open Cert.ReferenceIdeal Cert.ReferenceIdeal.Gen Cert.ReferenceIdeal.Read Cert.LossSpec

/-- An entry of the reference's score array is the score term of the difference there. -/
theorem scoreEntry (x0 x1 : (⟨S8388608, .f32⟩ : BufTy).Contents (Elt Ideal)) (j : S8388608.Idx) :
    val_main_v12 (F := Ideal) x0 x1 j = scoreTerm (x0 j - x1 j) := by
  rw [val_main_v12_apply, val_main_v10_apply, val_main_v11_apply, val_main_cst_2_apply, val_main_v2_apply,
    val_main_v6_apply, val_main_v9_apply, val_main_v5_apply, val_main_v8_apply, val_main_v3_apply, val_main_v4_apply,
    val_main_v7_apply, val_main_cst_0_apply, val_main_cst_1_apply, val_main_v1_apply, val_main_cst_apply,
    val_main_v0_apply]
  simp only [Ideal.subf_def, Ideal.cmpf_def, Ideal.hostNegf_def, Ideal.negf_def, Ideal.hostDivf_def,
    Ideal.hostUnary_exp_def, Ideal.ofBits_def, Ideal.ofBits_zero_f32]
  rfl

/-- An entry of the reference's array of squares is the square of the difference there. -/
theorem squareEntry (x0 x1 : (⟨S8388608, .f32⟩ : BufTy).Contents (Elt Ideal)) (j : S8388608.Idx) :
    val_main_v14 (F := Ideal) x0 x1 j = squareTerm (x0 j - x1 j) := by
  rw [val_main_v14_apply, val_main_v0_apply]
  rfl

/-- The reference's first sum is the score total (its initial value is zero). -/
theorem scoreSum (x0 x1 : (⟨S8388608, .f32⟩ : BufTy).Contents (Elt Ideal)) (i : S_.Idx) :
    val_main_v13 (F := Ideal) x0 x1 i = total scoreTerm x0 x1 := by
  rw [val_main_v13_apply, val_main_cst_3_apply]
  show Ideal.ofBits .f32 0x00000000#32 + _ = _
  rw [Ideal.ofBits_zero_f32, zero_add]
  exact Finset.sum_congr rfl fun j _ => scoreEntry x0 x1 j

/-- The reference's second sum is the squared-error total. -/
theorem squareSum (x0 x1 : (⟨S8388608, .f32⟩ : BufTy).Contents (Elt Ideal)) (i : S_.Idx) :
    val_main_v15 (F := Ideal) x0 x1 i = total squareTerm x0 x1 := by
  rw [val_main_v15_apply, val_main_cst_4_apply]
  show Ideal.ofBits .f32 0x00000000#32 + _ = _
  rw [Ideal.ofBits_zero_f32, zero_add]
  exact Finset.sum_congr rfl fun j _ => squareEntry x0 x1 j

/-- THE REFERENCE'S RESULT is the loss of its two arguments. -/
theorem result_eq (x0 x1 : (⟨S8388608, .f32⟩ : BufTy).Contents (Elt Ideal)) :
    val_main_v20 (F := Ideal) x0 x1 = loss x0 x1 :=
  (show val_main_v20 (F := Ideal) x0 x1
      = combine (val_main_v13 (F := Ideal) x0 x1) (val_main_v15 (F := Ideal) x0 x1) from rfl).trans
    (congrArg₂ combine (funext fun i => scoreSum x0 x1 i) (funext fun i => squareSum x0 x1 i))

end Cert.ReferenceIdeal.RefValue

end
-- ==== Proof.lean ====
/-
  The asymmetric-score-plus-RMSE loss of two f32[8388608] arrays: a Pallas kernel against its jnp reference.

  Both programs compute, of d = predicted - labels,
      0.5 * Σ s(d_i) + 0.5 * sqrt((Σ d_i²) / 8388608),    s(d) = (if d < 0 then exp(-d/13) else exp(d/10)) - 1.
  The reference sums the flat arrays.  The kernel reshapes them to [65536, 128], walks sixteen blocks of 4096
  rows, and at each block adds the block's two totals (rows summed first, then lanes) into two 1 × 1
  accumulators that are zeroed at the first block and written back after the last; the final combination is
  made on the host from the two accumulators.  At the extended reals the per-element terms are the same
  functions on both sides, and the two sides differ only in the order in which a finite sum is taken, which
  does not matter in a commutative monoid: so the claim holds for all inputs, and the proof never uses the
  finiteness precondition.

  The pieces: Proof/LossSpec.lean (the terms, the combination, the re-indexing of the row sum by blocks),
  Proof/PieceValues.lean (what one run of the body leaves in the accumulators), Proof/BlockTotals.lean (a
  block's two totals as double sums), Proof/RunningTotals.lean (the accumulators after each point, by
  induction), Proof/KernelValue.lean (the arrays after the run, the host lines after the call, the kernel's
  run), Proof/ReferenceValue.lean (the reference's result).  The three frames are the generated ones (the
  reference's is its generated run with the result dropped); the idealization rewrote nothing.
-/
import proofs.«109373_j20177756356930_2_alg».proof.Defs
import proofs.«109373_j20177756356930_2_alg».proof.Proof.Gen.Kernel
import proofs.«109373_j20177756356930_2_alg».proof.Proof.Gen.Kernel.Skeleton
import proofs.«109373_j20177756356930_2_alg».proof.Proof.Gen.Kernel.Launch
import proofs.«109373_j20177756356930_2_alg».proof.Proof.Gen.Kernel.Points
import proofs.«109373_j20177756356930_2_alg».proof.Proof.Gen.Kernel.Frame
import proofs.«109373_j20177756356930_2_alg».proof.Proof.Gen.KernelIdeal
import proofs.«109373_j20177756356930_2_alg».proof.Proof.Gen.KernelIdeal.Skeleton
import proofs.«109373_j20177756356930_2_alg».proof.Proof.Gen.KernelIdeal.Launch
import proofs.«109373_j20177756356930_2_alg».proof.Proof.Gen.KernelIdeal.Points
import proofs.«109373_j20177756356930_2_alg».proof.Proof.Gen.KernelIdeal.Frame
import proofs.«109373_j20177756356930_2_alg».proof.Proof.Gen.ReferenceIdeal
import proofs.«109373_j20177756356930_2_alg».proof.Proof.Gen.ReferenceIdeal.Run
import proofs.«109373_j20177756356930_2_alg».proof.Proof.Gen.ReferenceIdeal.Read
import proofs.«109373_j20177756356930_2_alg».proof.Proof.Gen.Pre_finite_inputs
import proofs.«109373_j20177756356930_2_alg».proof.Proof.LossSpec
import proofs.«109373_j20177756356930_2_alg».proof.Proof.KernelValue
import proofs.«109373_j20177756356930_2_alg».proof.Proof.ReferenceValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the loss of the (agreeing) inputs in their result. -/
theorem algebraic : Cert.algebraic_KernelIdeal_ReferenceIdeal := by
  intro m ρ m' ρ' _ hagree
  refine ⟨fun c => Cert.LossSpec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
